-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 33
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S50000x1, .f32⟩
  | .hbm, ⟨30, _⟩ => ⟨S128x128, .f32⟩
  | .hbm, ⟨31, _⟩ => ⟨S128x128, .f32⟩
  | .hbm, ⟨32, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibColumn.lean ====
/-
  A column read at coordinates. An array of shape [a, 1] is a column: one value per row. Two layout operations make or
  spread a column, and each is read here at an index written by its coordinates:
    • a vector [a] reshaped into the column [a, 1] keeps row `p`'s value at (p, 0);
    • a column [a, 1] broadcast along a new second axis to [a, b] repeats row `p`'s value at every (p, c).
  Both are the general read-at-an-index lemmas of a shape cast and of a broadcast with the coordinates' arithmetic done:
  the row-major position of (p, 0) in [a, 1] is p·1 + 0, and a broadcast reads coordinate 0 on the operand's unit axis.
-/
import Idealize.ShloMosaic.Lib.ValueLayout

namespace Idealize.ShloMosaic.ValueIdx

open Idealize.ShloMosaic

variable {α : Type}

/-- An `[a]` array reshaped to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyUpdate.lean ====
/-
  What the kernel body stores, read at one entry of its block.
  The body holds a block of 2000 nodes: their features `x0`, their summed messages `x1`, their in-degrees as a column `x3`,
  the two weight matrices already transposed (`x11`, `x14`: indexed (input feature, output feature)) and the bias `x20`.
  At the extended reals a change of float format is the identity and a matrix product into a zero accumulator is the plain
  sum over the contracted axis, so the stored entry (p, q) is

      (∑ k, x0 p k · x11 k q) + (∑ k, (x1 p k / max (x3 p 0) 1) · x14 k q) + x20 q .
-/
import proofs.«162796_j83408264888627_1_alg».proof.Proof.Gen.KernelIdeal.Skeleton
import proofs.«162796_j83408264888627_1_alg».proof.Proof.LibColumn
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product's left operand is read on the output's row. -/
theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The product's right operand is read on the output's column. -/
theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A [2000,128] × [128,128] block product into the zero accumulator, at entry (p, q): row `p` of the left operand against
    column `q` of the right, summed over the 128 contracted positions. -/
theorem blockDot_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- THE STORED ENTRY: self term, neighbour term and bias of the block's rows, in the body's order of addition. -/
theorem payload_apply (x0 x1 : Vec Ideal S2000x128 .f32) (x3 : Vec Ideal S2000x1 .f32) (x11 x14 : Vec Ideal S128x128 .f32)
    (x20 : Vec Ideal S128 .f32) (p : Fin 2000) (q : Fin 128) :
    k0_pay1 (F := Ideal) x0 x1 x3 x11 x14 x20 (ix2 p q)
      = (∑ k : Fin 128, x0 (ix2 p k) * x11 (ix2 k q))
        + (∑ k : Fin 128, Ideal.div (x1 (ix2 p k)) (max (x3 (ix2 p (0 : Fin 1))) (Ideal.ofBits .f32 0x3F800000#32)) * x14 (ix2 k q))
        + x20 (ix1 q) := by
  unfold k0_pay1
  rw [addf_apply, addf_apply, blockDot_apply, blockDot_apply, broadcastTo_1b_ab_apply, shapeCast_a_1a_apply]
  simp only [truncf_apply, shapeCast_self, divf_apply, broadcastTo_a1_ab_apply, maximumf_apply, broadcast_apply,
    Ideal.ofBits_def]

end Cert.KernelIdeal.Body

end
-- ==== Proof.HostStages.lean ====
/-
  What the region finds in the four windows whose arrays the host operations before it computed.
  Before the call, @main sums the weighted messages into their destination nodes (`messageSum`: a gather of the source
  nodes' rows, each scaled by its edge weight, scatter-added by destination), counts the edges arriving at each node
  (`inDegree`: ones scatter-added by destination) and reshapes the count into a column, and transposes the two weight
  matrices. The two scatter-add stages are named here as functions of the argument arrays and never opened: the reference
  computes the same two stages, and the bridge only needs that both programs feed the same values on.
-/
import proofs.«162796_j83408264888627_1_alg».proof.Proof.Gen.KernelIdeal.Frame
import Idealize.ShloMosaic.Lib.StableHlo.Run
import Idealize.ShloMosaic.PureOps.Ideal

noncomputable section

namespace Cert.KernelIdeal.HostStages

open Cert.KernelIdeal Cert.KernelIdeal.Gen Idealize.ShloMosaic Idealize.ShloMosaic.TcCoe Idealize.SL.Sem
open Idealize.ShloMosaic.StableHlo

/-- The weighted messages summed into their destination nodes: row `edge_src e` of the features (a negative index counted
    from the end), times `edge_weight e`, added into row `edge_dst e` of a zero array. -/
def messageSum (x0 : (⟨S50000x128, .f32⟩ : BufTy).Contents (Elt Ideal)) (x1 x2 : (⟨S800000, .i32⟩ : BufTy).Contents (Elt Ideal))
    (x3 : (⟨S800000, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (mulf (Host.gather gather_S50000x128_S800000x1_S800000x128_1_0_n_n_0_1_1128 x0
        (broadcastInDim S800000x1 ![0] bcast_S800000_S800000x1_0
          (select (cmpi .slt x1 (broadcastInDim S800000 ![] bcast_S_S800000 (constantI S_ 32 0#32)))
            (addi x1 (broadcastInDim S800000 ![] bcast_S_S800000 (constantI S_ 32 50000#32))) x1)))
      (broadcastInDim S800000x128 ![0, 1] bcast_S800000x1_S800000x128_0_1
        (broadcastInDim S800000x1 ![0] bcast_S800000_S800000x1_0 x3)))

/-- The number of edges arriving at each node: a one per edge, added at `edge_dst e` into a zero vector. -/
def inDegree (x2 : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 x2)
    (broadcastInDim S800000 ![] bcast_S_S800000 (constant (F := Ideal) S_ .f32 0x3F800000#32))

variable (m : (ℓ : Loc nD τ sig) → Buf (Elt Ideal) ℓ)

/-- Window 1's array: the summed messages of the argument arrays. -/
theorem found_messageSum (c : Dev nD) :
    (V m c main_v12 : S50000x128.Idx → EReal)
      = messageSum (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp <;> rfl

/-- Window 2's array: the in-degrees as a column. -/
theorem found_degreeColumn (c : Dev nD) :
    (V m c main_v17 : S50000x1.Idx → EReal)
      = shapeCast S50000x1 (inDegree (m ((c : Thread nD τ).loc main_arg2))) shapeCasts_S50000_S50000x1 := by
  dsimp only [Gen.V, Gen.hostOps0]
  after_results_simp <;> rfl

/-- Window 3's array: the self weights transposed. -/
theorem found_selfWeightsT (c : Dev nD) :
    (V m c main_v18 : S128x128.Idx → EReal)
      = transpose S128x128 [1, 0] (m ((c : Thread nD τ).loc main_arg5)) transposes_S128x128_S128x128_1_0 := by
  dsimp only [Gen.V, Gen.hostOps0]
  after_results_simp <;> rfl

/-- Window 4's array: the neighbour weights transposed. -/
theorem found_neighWeightsT (c : Dev nD) :
    (V m c main_v19 : S128x128.Idx → EReal)
      = transpose S128x128 [1, 0] (m ((c : Thread nD τ).loc main_arg4)) transposes_S128x128_S128x128_1_0 := by
  dsimp only [Gen.V, Gen.hostOps0]
  after_results_simp <;> rfl

end Cert.KernelIdeal.HostStages

end
-- ==== Proof.Update.lean ====
/-
  The node update both programs compute, as one function of six arrays, index by index on the extended reals.
  For node `r` and output feature `q`, with `h r k = nsum r k / max (deg r) 1` the mean of the incoming messages,

      update r q = (∑ k, feat r k · wSelf q k) + (∑ k, h r k · wNeigh q k) + bias q .

  The two weight matrices are indexed (output feature, input feature): each product contracts the input feature.
  One program adds the bias last and the other adds it before the neighbour term; the sum of three extended reals
  does not depend on which two are added first (`add_right_comm`), and that is the only law the bridge needs:
  no term is cancelled or distributed, so nothing here asks the inputs to be finite.
-/
import Idealize.ShloMosaic.PureOps.Ideal
import Idealize.ShloMosaic.Lib.ValueIdx

noncomputable section

namespace Cert.SageUpdate

open Idealize.ShloMosaic Idealize.ShloMosaic.ValueIdx

/-- The mean's divisor at a node: its in-degree, or one if no edge arrives (the float word is that of 1.0; it is the same
    word in both programs and is never evaluated). -/
abbrev divisor (d : EReal) : EReal := max d (Ideal.ofBits .f32 0x3F800000#32)

/-- The self term: row `r` of the features against row `q` of the self weights. -/
abbrev selfTerm (feat : (⟨2, ![50000, 128]⟩ : Shape).Idx → EReal) (wSelf : (⟨2, ![128, 128]⟩ : Shape).Idx → EReal)
    (r : Fin 50000) (q : Fin 128) : EReal :=
  ∑ k : Fin 128, feat (ix2 r k) * wSelf (ix2 q k)

/-- The neighbour term: row `r` of the summed messages, divided by the node's divisor, against row `q` of the neighbour
    weights. -/
abbrev neighTerm (nsum : (⟨2, ![50000, 128]⟩ : Shape).Idx → EReal) (deg : (⟨1, ![50000]⟩ : Shape).Idx → EReal)
    (wNeigh : (⟨2, ![128, 128]⟩ : Shape).Idx → EReal) (r : Fin 50000) (q : Fin 128) : EReal :=
  ∑ k : Fin 128, Ideal.div (nsum (ix2 r k)) (divisor (deg (ix1 r))) * wNeigh (ix2 q k)

/-- The node update: self term, neighbour term and bias, added in that order. -/
def nodeUpdate (feat nsum : (⟨2, ![50000, 128]⟩ : Shape).Idx → EReal) (deg : (⟨1, ![50000]⟩ : Shape).Idx → EReal)
    (wNeigh wSelf : (⟨2, ![128, 128]⟩ : Shape).Idx → EReal) (bias : (⟨1, ![128]⟩ : Shape).Idx → EReal) :
    (⟨2, ![50000, 128]⟩ : Shape).Idx → EReal := fun i =>
  selfTerm feat wSelf (i 0) (i 1) + neighTerm nsum deg wNeigh (i 0) (i 1) + bias (ix1 (i 1))

theorem nodeUpdate_apply (feat nsum : (⟨2, ![50000, 128]⟩ : Shape).Idx → EReal) (deg : (⟨1, ![50000]⟩ : Shape).Idx → EReal)
    (wNeigh wSelf : (⟨2, ![128, 128]⟩ : Shape).Idx → EReal) (bias : (⟨1, ![128]⟩ : Shape).Idx → EReal)
    (r : Fin 50000) (q : Fin 128) :
    nodeUpdate feat nsum deg wNeigh wSelf bias (ix2 r q)
      = selfTerm feat wSelf r q + neighTerm nsum deg wNeigh r q + bias (ix1 q) := rfl

/-- Bias before the neighbour term, or after it: one sum. -/
theorem bias_first (a b n : EReal) : a + b + n = a + n + b := add_right_comm a b n

end Cert.SageUpdate

end
-- ==== Proof.KernelUpdate.lean ====
/-
  From the kernel's blocks to its result array.
  The grid has 25 points; point `t` works on nodes 2000·t … 2000·t + 1999: it is handed those rows of the features, of the
  summed messages and of the in-degree column, the two transposed weight matrices and the bias whole, and writes those
  rows of the result. Row `p` of a block is row `2000·t + p` of its array, so what point `t` writes back is block `t` of ONE
  function of the arrays the region finds (`foundUpdate`); the 25 blocks tile the 50000 rows, so the result array ends
  holding that function. Read through the layouts the host operations produced — the weights transposed, the in-degree
  reshaped into a column — it is the node update of the argument arrays.
-/
import proofs.«162796_j83408264888627_1_alg».proof.Proof.Gen.KernelIdeal.Value
import proofs.«162796_j83408264888627_1_alg».proof.Proof.BodyUpdate
import proofs.«162796_j83408264888627_1_alg».proof.Proof.HostStages
import proofs.«162796_j83408264888627_1_alg».proof.Proof.Update
import Idealize.ShloMosaic.Lib.Pipeline.Value

noncomputable section

namespace Cert.KernelIdeal.Blocks

open Cert.KernelIdeal Cert.KernelIdeal.Gen Cert.KernelIdeal.HostStages Cert.SageUpdate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## The update in the layouts the region finds -/

/-- Entry (r, q) from the six window arrays: the weights are indexed (input feature, output feature) and the in-degree is
    a column. -/
abbrev foundEntry (a0 a1 : S50000x128.Idx → EReal) (a2 : S50000x1.Idx → EReal) (a3 a4 : S128x128.Idx → EReal)
    (a5 : S128.Idx → EReal) (r : Fin 50000) (q : Fin 128) : EReal :=
  (∑ k : Fin 128, a0 (ix2 r k) * a3 (ix2 k q))
    + (∑ k : Fin 128, Ideal.div (a1 (ix2 r k)) (max (a2 (ix2 r (0 : Fin 1))) (Ideal.ofBits .f32 0x3F800000#32)) * a4 (ix2 k q))
    + a5 (ix1 q)

/-- The whole result as one function of the six window arrays. -/
def foundUpdate (a0 a1 : S50000x128.Idx → EReal) (a2 : S50000x1.Idx → EReal) (a3 a4 : S128x128.Idx → EReal)
    (a5 : S128.Idx → EReal) : S50000x128.Idx → EReal := fun i => foundEntry a0 a1 a2 a3 a4 a5 (i 0) (i 1)

theorem foundUpdate_apply (a0 a1 : S50000x128.Idx → EReal) (a2 : S50000x1.Idx → EReal) (a3 a4 : S128x128.Idx → EReal)
    (a5 : S128.Idx → EReal) (r : Fin 50000) (q : Fin 128) :
    foundUpdate a0 a1 a2 a3 a4 a5 (ix2 r q) = foundEntry a0 a1 a2 a3 a4 a5 r q := rfl

/-! ## Where each window's block sits at a grid point -/

/-- The printed index maps over the 25 points: the three row windows and the output move with the point along the rows;
    the weights and the bias stay at block zero. -/
theorem index_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

theorem point_lt (t : Fin cfg0.N) : t.val < 25 := by
  have h := t.isLt
  have hN : cfg0.N = 25 := N_0
  omega

/-- Row `p` of point `t`'s blocks is node `2000·t + p`. -/
def node (t : Fin cfg0.N) (p : Fin 2000) : Fin 50000 :=
  ⟨t.val * 2000 + p.val, by have := point_lt t; have := p.isLt; omega⟩

theorem node_val (t : Fin cfg0.N) (p : Fin 2000) : (node t p).val = t.val * 2000 + p.val := rfl

/-! Each lemma below reads ANY array through a window's block at point `t`; the array is a variable, so nothing here
    depends on what the host operations put there. -/

/-- Window 0 (features): row `p` of the block is row `2000·t + p` of the array. -/
theorem rows0_read (A : S50000x128.Idx → EReal) (t : Fin cfg0.N) (p : Fin 2000) (k : Fin 128) :
    (((cfg0.win 0).blk t).view.read (Elt Ideal) A : Vec Ideal S2000x128 .f32) (ix2 p k) = A (ix2 (node t p) k) := by
  obtain ⟨-, -, e0, e1, -⟩ := index_facts t
  rw [View.read_apply]
  show A (((cfg0.win 0).blk t).view.emb (ix2 p k)) = A (ix2 (node t p) k)
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Window 1 (summed messages): the same rows. -/
theorem rows1_read (A : S50000x128.Idx → EReal) (t : Fin cfg0.N) (p : Fin 2000) (k : Fin 128) :
    (((cfg0.win 1).blk t).view.read (Elt Ideal) A : Vec Ideal S2000x128 .f32) (ix2 p k) = A (ix2 (node t p) k) := by
  obtain ⟨-, -, -, -, e0, e1, -⟩ := index_facts t
  rw [View.read_apply]
  show A (((cfg0.win 1).blk t).view.emb (ix2 p k)) = A (ix2 (node t p) k)
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Window 2 (in-degree column): the same rows of a one-column array. -/
theorem rows2_read (A : S50000x1.Idx → EReal) (t : Fin cfg0.N) (p : Fin 2000) :
    (((cfg0.win 2).blk t).view.read (Elt Ideal) A : Vec Ideal S2000x1 .f32) (ix2 p (0 : Fin 1))
      = A (ix2 (node t p) (0 : Fin 1)) := by
  obtain ⟨-, -, -, -, -, -, e0, e1, -⟩ := index_facts t
  rw [View.read_apply]
  show A (((cfg0.win 2).blk t).view.emb (ix2 p (0 : Fin 1))) = A (ix2 (node t p) (0 : Fin 1))
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- Window 3 (transposed self weights): the whole array at every point. -/
theorem whole3_read (A : S128x128.Idx → EReal) (t : Fin cfg0.N) (k q : Fin 128) :
    (((cfg0.win 3).blk t).view.read (Elt Ideal) A : Vec Ideal S128x128 .f32) (ix2 k q) = A (ix2 k q) := by
  obtain ⟨-, -, -, -, -, -, -, -, e0, e1, -⟩ := index_facts t
  rw [View.read_apply]
  show A (((cfg0.win 3).blk t).view.emb (ix2 k q)) = A (ix2 k q)
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4 (transposed neighbour weights): the whole array at every point. -/
theorem whole4_read (A : S128x128.Idx → EReal) (t : Fin cfg0.N) (k q : Fin 128) :
    (((cfg0.win 4).blk t).view.read (Elt Ideal) A : Vec Ideal S128x128 .f32) (ix2 k q) = A (ix2 k q) := by
  obtain ⟨-, -, -, -, -, -, -, -, -, -, e0, e1, -⟩ := index_facts t
  rw [View.read_apply]
  show A (((cfg0.win 4).blk t).view.emb (ix2 k q)) = A (ix2 k q)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Window 5 (bias): the whole vector at every point. -/
theorem whole5_read (A : S128.Idx → EReal) (t : Fin cfg0.N) (q : Fin 128) :
    (((cfg0.win 5).blk t).view.read (Elt Ideal) A : Vec Ideal S128 .f32) (ix1 q) = A (ix1 q) := by
  obtain ⟨-, -, -, -, -, -, -, -, -, -, -, -, e0⟩ := index_facts t
  rw [View.read_apply]
  show A (((cfg0.win 5).blk t).view.emb (ix1 q)) = A (ix1 q)
  refine congrArg A (funext fun a => Fin.ext ?_)
  match a with
  | ⟨0, _⟩ => show win0_5.index t (0 : Fin 1) * 128 + 1 * q.val = q.val; rw [e0]; omega

/-- Window 6 (result): entry (p, q) of the block at point `t` is entry (2000·t + p, q) of the array. -/
theorem rows6_read (G : S50000x128.Idx → EReal) (t : Fin cfg0.N) (p : Fin 2000) (q : Fin 128) :
    (((cfg0.win 6).blk t).view.read (Elt Ideal) G : Vec Ideal S2000x128 .f32) (ix2 p q) = G (ix2 (node t p) q) := by
  obtain ⟨e0, e1, -⟩ := index_facts t
  rw [View.read_apply]
  show G (((cfg0.win 6).blk t).view.emb (ix2 p q)) = G (ix2 (node t p) q)
  refine congrArg G (funext fun a => Fin.ext ?_)
  match a with
  | ⟨0, _⟩ => show win0_6.index t (0 : Fin 2) * 2000 + 1 * p.val = t.val * 2000 + p.val; rw [e0]; omega
  | ⟨1, _⟩ => show win0_6.index t (1 : Fin 2) * 128 + 1 * q.val = q.val; rw [e1]; omega

/-- The result window's blocks are never clipped: what is written back is the whole staged block. -/
theorem out_cut_apply (X : Vec Ideal S2000x128 .f32) (t : Fin cfg0.N) (p : Fin 2000) (q : Fin 128) :
    ((cfg0.win 6).cut (grid0.coords t) X : Vec Ideal S2000x128 .f32) (ix2 p q) = X (ix2 p q) := rfl

/-! ## What a point writes back, the cover, the result array -/

/-- WHAT POINT `t` WRITES BACK is block `t` of `foundUpdate` of the arrays the region finds. -/
theorem flushed_eq (c : Dev nD) (t : Fin cfg0.N) :
    (dats m 0 c).flushed 6 t = ((cfg0.win 6).blk t).view.read (Elt Ideal)
      (foundUpdate (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Cert.KernelIdeal.Value.flushed6]
  unfold out0_6
  rw [View.canon_unit_zero zero2]
  simp only [View.ld_unit_zero (S := S2000x128) zero2, View.ld_unit_zero (S := S2000x1) zero2,
    View.ld_unit_zero (S := S128x128) zero2, View.ld_unit_zero (S := S128) zero1]
  funext j
  obtain ⟨p, q, rfl⟩ : ∃ (p : Fin 2000) (q : Fin 128), j = ix2 p q := ⟨j 0, j 1, eq_ix2 j⟩
  rw [rows6_read, out_cut_apply, foundUpdate_apply]
  refine (Cert.KernelIdeal.Body.payload_apply (iblk m c 0 t) (iblk m c 1 t) (iblk m c 2 t) (iblk m c 3 t) (iblk m c 4 t)
    (iblk m c 5 t) p q).trans ?_
  unfold iblk
  refine congrArg₂ (· + ·) (congrArg₂ (· + ·) (Finset.sum_congr rfl fun k _ => ?_) (Finset.sum_congr rfl fun k _ => ?_)) ?_
  · rw [rows0_read, whole3_read]
  · rw [rows1_read, rows2_read, whole4_read]
  · rw [whole5_read]

/-- An index is in point `t`'s output block iff each coordinate is in the block's range on its axis. -/
theorem mem_block (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v20).slice (win0_6.rect t)).set ↔ _
  rw [View.set_slice_whole, Rect.mem_set_unit]
  exact Iff.rfl

/-- THE COVER: node `r` is in the block of point `r / 2000`. -/
theorem covered (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨e0, e1, -⟩ := index_facts t
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- THE RESULT ARRAY after the run, from the arrays the region finds. -/
theorem final_found (c : Dev nD) :
    (dats m 0 c).arrAt 6 cfg0.N
      = foundUpdate (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5)) :=
  (dats m 0 c).arrAt_eq_of_cover 6 _ (fun t _ => flushed_eq m c t) covered

/-! ## Through the host layouts: the node update of the arguments -/

/-- With the weights un-transposed and the in-degree read off its column, `foundUpdate` is the node update. -/
theorem found_layouts (x0 a1 : S50000x128.Idx → EReal) (d : S50000.Idx → EReal) (x4 x5 : S128x128.Idx → EReal)
    (x6 : S128.Idx → EReal) :
    foundUpdate x0 a1 (shapeCast S50000x1 d shapeCasts_S50000_S50000x1)
        (transpose S128x128 [1, 0] x5 transposes_S128x128_S128x128_1_0)
        (transpose S128x128 [1, 0] x4 transposes_S128x128_S128x128_1_0) x6
      = nodeUpdate x0 a1 d x4 x5 x6 := by
  funext i
  obtain ⟨r, q, rfl⟩ : ∃ (r : Fin 50000) (q : Fin 128), i = ix2 r q := ⟨i 0, i 1, eq_ix2 i⟩
  rw [foundUpdate_apply, nodeUpdate_apply]
  refine congrArg₂ (· + ·) (congrArg₂ (· + ·) (Finset.sum_congr rfl fun k _ => ?_) (Finset.sum_congr rfl fun k _ => ?_)) rfl
  · rw [transpose_ix2_apply]
  · rw [transpose_ix2_apply, shapeCast_a_a1_apply]

/-- The result array is the node update of the argument arrays, the summed messages and the in-degree being the host's two
    scatter-add stages of them. -/
theorem final (c : Dev nD) :
    (dats m 0 c).arrAt 6 cfg0.N
      = nodeUpdate (m ((c : Thread nD τ).loc main_arg0))
          (messageSum (m ((c : Thread nD τ).loc main_arg0)) (m ((c : Thread nD τ).loc main_arg1))
            (m ((c : Thread nD τ).loc main_arg2)) (m ((c : Thread nD τ).loc main_arg3)))
          (inDegree (m ((c : Thread nD τ).loc main_arg2)))
          (m ((c : Thread nD τ).loc main_arg4)) (m ((c : Thread nD τ).loc main_arg5)) (m ((c : Thread nD τ).loc main_arg6)) := by
  rw [final_found]
  -- the six windows' arrays by name: the features, the summed messages, the in-degree column, the two transposed weight
  -- matrices, the bias
  show foundUpdate (V m c main_arg0) (V m c main_v12) (V m c main_v17) (V m c main_v18) (V m c main_v19) (V m c main_arg6) = _
  rw [V_main_arg0, V_main_arg6, found_messageSum, found_degreeColumn, found_selfWeightsT, found_neighWeightsT]
  exact found_layouts _ _ _ _ _ _

/-- THE RUN, READ: the result array at the node update of the arguments, the arguments unchanged. -/
theorem run : θ_run defs (onTc (τ := τ) (main (F := Ideal))) ⟨m, fun _ => 0, ρ⟩ fun r => ∀ c : Dev nD,
      r.2.mem ((c : Thread nD τ).loc main_v20)
        = nodeUpdate (m ((c : Thread nD τ).loc main_arg0))
            (messageSum (m ((c : Thread nD τ).loc main_arg0)) (m ((c : Thread nD τ).loc main_arg1))
              (m ((c : Thread nD τ).loc main_arg2)) (m ((c : Thread nD τ).loc main_arg3)))
            (inDegree (m ((c : Thread nD τ).loc main_arg2)))
            (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩)
    (Cert.KernelIdeal.Value.run_blocks m ρ)

end Cert.KernelIdeal.Blocks

end
-- ==== Proof.RefUpdate.lean ====
/-
  The reference computes the node update.
  Read one operation at a time, the reference's result at (r, q) is

      ((∑ k, feat r k · wSelf q k) + bias q) + ∑ k, (nsum r k / max (deg r) 1) · wNeigh q k

  where `nsum` and `deg` are its two scatter-add stages, left unopened: the weights enter through a transpose, so entry
  (k, q) of the transposed matrix is entry (q, k) of the argument; the divisor reaches (r, k) through two broadcasts of the
  per-node maximum. That is the node update with the bias added before the neighbour term instead of after it.
-/
import proofs.«162796_j83408264888627_1_alg».proof.Proof.Gen.ReferenceIdeal.Read
import proofs.«162796_j83408264888627_1_alg».proof.Proof.Update

noncomputable section

namespace Cert.ReferenceIdeal.RefUpdate

open Cert.ReferenceIdeal Cert.ReferenceIdeal.Read Idealize.ShloMosaic Idealize.ShloMosaic.ValueIdx Cert.SageUpdate

/-- The self product's right factor: entry (k, q) of the transposed self weights is entry (q, k) of the argument. -/
theorem selfWeight_apply (x5 : (⟨S128x128, .f32⟩ : BufTy).Contents (Elt Ideal)) (r : Fin 50000) (q k : Fin 128) :
    val_main_v24 (F := Ideal) x5 (ridx_main_v25 (ix2 r q) k) = x5 (ix2 q k) := by
  rw [val_main_v24_apply]
  exact congrArg x5 (funext fun a => Fin.ext (by match a with | ⟨0, _⟩ => rfl | ⟨1, _⟩ => rfl))

/-- The neighbour product's right factor, likewise. -/
theorem neighWeight_apply (x4 : (⟨S128x128, .f32⟩ : BufTy).Contents (Elt Ideal)) (r : Fin 50000) (q k : Fin 128) :
    val_main_v22 (F := Ideal) x4 (ridx_main_v23 (ix2 r q) k) = x4 (ix2 q k) := by
  rw [val_main_v22_apply]
  exact congrArg x4 (funext fun a => Fin.ext (by match a with | ⟨0, _⟩ => rfl | ⟨1, _⟩ => rfl))

/-- The bias reaches (r, q) through two broadcasts of entry `q`. -/
theorem bias_apply (x6 : (⟨S128, .f32⟩ : BufTy).Contents (Elt Ideal)) (r : Fin 50000) (q : Fin 128) :
    val_main_v27 (F := Ideal) x6 (ix2 r q) = x6 (ix1 q) := by
  rw [val_main_v27_apply, val_main_v26_apply]
  exact congrArg x6 (funext fun a => Fin.ext (by match a with | ⟨0, _⟩ => rfl))

/-- The divisor reaches (r, k) through two broadcasts of node `r`'s maximum of its in-degree and one. -/
theorem divisor_apply (x2 : (⟨S800000, .i32⟩ : BufTy).Contents (Elt Ideal)) (r : Fin 50000) (k : Fin 128) :
    val_main_v20 (F := Ideal) x2 (ix2 r k) = divisor (val_main_v16 (F := Ideal) x2 (ix1 r)) := by
  rw [val_main_v20_apply, val_main_v19_apply, val_main_v18_apply, val_main_v17_apply, val_main_cst_3_apply]
  have e : idx_main_v19 (idx_main_v20 (ix2 r k)) = ix1 r :=
    funext fun a => Fin.ext (by match a with | ⟨0, _⟩ => rfl)
  rw [e]
  rfl

/-- The neighbour product's left factor: the mean of the messages arriving at node `r`, feature `k`. -/
theorem mean_apply (x0 : (⟨S50000x128, .f32⟩ : BufTy).Contents (Elt Ideal)) (x1 x2 : (⟨S800000, .i32⟩ : BufTy).Contents (Elt Ideal))
    (x3 : (⟨S800000, .f32⟩ : BufTy).Contents (Elt Ideal)) (r : Fin 50000) (q k : Fin 128) :
    val_main_v21 (F := Ideal) x0 x1 x2 x3 (lidx_main_v23 (ix2 r q) k)
      = Ideal.div (val_main_v12 (F := Ideal) x0 x1 x2 x3 (ix2 r k)) (divisor (val_main_v16 (F := Ideal) x2 (ix1 r))) := by
  have e : lidx_main_v23 (ix2 r q) k = ix2 r k :=
    funext fun a => Fin.ext (by match a with | ⟨0, _⟩ => rfl | ⟨1, _⟩ => rfl)
  rw [e, val_main_v21_apply, divisor_apply, Ideal.hostDivf_def]

/-- The self product's left factor is read on row `r`. -/
theorem selfRow_apply (x0 : (⟨S50000x128, .f32⟩ : BufTy).Contents (Elt Ideal)) (r : Fin 50000) (q k : Fin 128) :
    x0 (lidx_main_v25 (ix2 r q) k) = x0 (ix2 r k) :=
  congrArg x0 (funext fun a => Fin.ext (by match a with | ⟨0, _⟩ => rfl | ⟨1, _⟩ => rfl))

/-- The reference's result is the node update of its arguments and of its own message-sum and in-degree stages. -/
theorem result_eq (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 x5 : (⟨S128x128, .f32⟩ : BufTy).Contents (Elt Ideal))
    (x6 : (⟨S128, .f32⟩ : BufTy).Contents (Elt Ideal)) :
    val_main_v29 (F := Ideal) x0 x1 x2 x3 x4 x5 x6
      = nodeUpdate x0 (val_main_v12 (F := Ideal) x0 x1 x2 x3) (val_main_v16 (F := Ideal) x2) x4 x5 x6 := by
  funext i
  obtain ⟨r, q, rfl⟩ : ∃ (r : Fin 50000) (q : Fin 128), i = ix2 r q := ⟨i 0, i 1, eq_ix2 i⟩
  rw [nodeUpdate_apply, val_main_v29_apply, val_main_v28_apply, val_main_v25_apply, val_main_v23_apply, bias_apply,
    Ideal.addf_def, Ideal.addf_def]
  refine Eq.trans ?_ (bias_first _ _ _)
  refine congrArg₂ (· + ·) (congrArg₂ (· + ·) (Finset.sum_congr rfl fun k _ => ?_) rfl) (Finset.sum_congr rfl fun k _ => ?_)
  · rw [selfRow_apply x0, selfWeight_apply]
  · rw [mean_apply, neighWeight_apply]

end Cert.ReferenceIdeal.RefUpdate

end
-- ==== Proof.lean ====
/-
  A graph convolution's node update, fused kernel against plain reference, equal on the extended reals.

  Both programs first sum, for every node, the features of the source nodes of its incoming edges, each scaled by its edge
  weight (`nsum`), and count those edges (`deg`) — the same gather and the same two scatter-adds of the same arguments.
  Then, for node `r` and output feature `q`, with `h r k = nsum r k / max (deg r) 1`:

      reference:  ((∑ k, feat r k · wSelf q k) + bias q) + ∑ k, h r k · wNeigh q k
      kernel:     ((∑ k, feat r k · wSelf q k) + ∑ k, h r k · wNeigh q k) + bias q

  the kernel doing it 2000 nodes at a time, on weight matrices transposed beforehand and an in-degree reshaped into a
  column, with bf16 operands in its two matrix products. At the extended reals a change of float format is the identity
  and a matrix product into a zero accumulator is the plain sum over the contracted axis, so the two results differ only
  in which two of three terms are added first, and a sum of three extended reals does not depend on that. Nothing is
  cancelled or distributed: the proof never uses that the inputs are finite.

  The modules: `Update` states the node update as one function and the law; `RefUpdate` reads the reference's operations
  at an index; `BodyUpdate` reads the kernel body's stored value at an index; `HostStages` names what the host operations
  before the call leave in the kernel's windows; `KernelUpdate` goes from the 25 blocks to the result array; `LibColumn`
  reads a column's reshape and broadcast at coordinates.
-/
import proofs.«162796_j83408264888627_1_alg».proof.Defs
import proofs.«162796_j83408264888627_1_alg».proof.Proof.Gen.Kernel
import proofs.«162796_j83408264888627_1_alg».proof.Proof.Gen.Kernel.Skeleton
import proofs.«162796_j83408264888627_1_alg».proof.Proof.Gen.Kernel.Launch
import proofs.«162796_j83408264888627_1_alg».proof.Proof.Gen.Kernel.Points
import proofs.«162796_j83408264888627_1_alg».proof.Proof.Gen.Kernel.Frame
import proofs.«162796_j83408264888627_1_alg».proof.Proof.Gen.KernelIdeal
import proofs.«162796_j83408264888627_1_alg».proof.Proof.Gen.KernelIdeal.Skeleton
import proofs.«162796_j83408264888627_1_alg».proof.Proof.Gen.KernelIdeal.Launch
import proofs.«162796_j83408264888627_1_alg».proof.Proof.Gen.KernelIdeal.Points
import proofs.«162796_j83408264888627_1_alg».proof.Proof.Gen.KernelIdeal.Frame
import proofs.«162796_j83408264888627_1_alg».proof.Proof.Gen.ReferenceIdeal
import proofs.«162796_j83408264888627_1_alg».proof.Proof.Gen.Pre_finite_inputs
import proofs.«162796_j83408264888627_1_alg».proof.Proof.Gen.KernelIdeal.Value
import proofs.«162796_j83408264888627_1_alg».proof.Proof.Gen.ReferenceIdeal.Run
import proofs.«162796_j83408264888627_1_alg».proof.Proof.Gen.ReferenceIdeal.Read
import proofs.«162796_j83408264888627_1_alg».proof.Proof.KernelUpdate
import proofs.«162796_j83408264888627_1_alg».proof.Proof.RefUpdate
import Idealize.ShloMosaic.Adequacy
import Idealize.ShloMosaic.Init

noncomputable section

namespace Cert.Proof

open Idealize.ShloMosaic Idealize.SL.Sem Cert.SageUpdate

/-! ## The two programs' shared stages are one function of the arguments -/

/-- The reference's message-sum stage is the kernel program's: the same gather, product and scatter-add. -/
theorem messageSum_agree (x0 : (⟨Cert.KernelIdeal.S50000x128, .f32⟩ : BufTy).Contents (Elt Ideal))
    (x1 x2 : (⟨Cert.KernelIdeal.S800000, .i32⟩ : BufTy).Contents (Elt Ideal))
    (x3 : (⟨Cert.KernelIdeal.S800000, .f32⟩ : BufTy).Contents (Elt Ideal)) :
    Cert.ReferenceIdeal.Read.val_main_v12 (F := Ideal) x0 x1 x2 x3 = Cert.KernelIdeal.HostStages.messageSum x0 x1 x2 x3 := rfl

/-- The reference's in-degree stage is the kernel program's: the same scatter-add of ones. -/
theorem inDegree_agree (x2 : (⟨Cert.KernelIdeal.S800000, .i32⟩ : BufTy).Contents (Elt Ideal)) :
    Cert.ReferenceIdeal.Read.val_main_v16 (F := Ideal) x2 = Cert.KernelIdeal.HostStages.inDegree x2 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the node update of the arguments: the kernel's by its blocks, the reference's operation by operation
    with the bias added one step earlier. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v29_eq, Cert.ReferenceIdeal.RefUpdate.result_eq, h0, h1, h2, h3, h4, h5, h6,
    messageSum_agree, inDegree_agree]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
